-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S4096x1024 : Shape := ⟨2, ![4096, 1024]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4x1024, .f32⟩
  | .hbm, ⟨12, _⟩ => ⟨S1x4096, .f32⟩
  | .hbm, ⟨13, _⟩ => ⟨S8192x1024, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S8192x4x1024, .f32⟩
  | .hbm, ⟨8, _⟩ => ⟨S8192x4x1024, .f32⟩
  | .hbm, ⟨9, _⟩ => ⟨S8192x4x1024, .f32⟩
  | .hbm, ⟨10, _⟩ => ⟨S1x4x1024, .f32⟩
  | .hbm, ⟨11, _⟩ => ⟨S8192x4x1024, .f32⟩
  | .hbm, ⟨12, _⟩ => ⟨S8192x4x1024, .f32⟩
  | .hbm, ⟨13, _⟩ => ⟨S1x4x1024, .f32⟩
  | .hbm, ⟨14, _⟩ => ⟨S8192x4x1024, .f32⟩
  | .hbm, ⟨15, _⟩ => ⟨S8192x4x1024, .f32⟩
  | .hbm, ⟨16, _⟩ => ⟨S8192x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf

class Facts : Prop extends Facts₀ where

variable [Facts]
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KernelGates.lean ====
/-
  The kernel body's gate block, read entry by entry.

  At one grid point the body holds a [256, 1024] block of x and of h, the whole flattened [4096, 1024] weight
  matrices (row n = gate n / 1024, output feature n % 1024) and the [1, 4096] sum of the two biases, and computes
  the [256, 4096] block

      gates[r, n] = Σ_k x[r,k] · Wx[n,k] + Σ_k h[r,k] · Wh[n,k] + bias[0,n]

  by two products that contract the last axis of both operands, a sum, and a row broadcast. Narrowing a float
  to a shorter format is the identity on the extended reals, and a cast to the same shape is the identity.
-/
import proofs.«108294_j3169685865216_2_alg».proof.Proof.Gen.KernelIdeal.Skeleton
import proofs.«108294_j3169685865216_2_alg».proof.Proof.LibMatmul2d
import Idealize.ShloMosaic.Lib.Pipeline.Value
import Idealize.ShloMosaic.Lib.ValueIdx
import Idealize.ShloMosaic.PureOps.Ideal.Laws

noncomputable section

namespace Cert.KernelLstm

open Cert.KernelIdeal Cert.KernelIdeal.Gen Idealize.ShloMosaic Idealize.ShloMosaic.ValueIdx
open scoped BigOperators

/-- A [256, 1024] block against every row of a [4096, 1024] matrix, into a zero accumulator: entry (r, n) is the
    sum over the 1024 input features. -/
theorem rows_by_rows (a : FVec Ideal S256x1024 .bf16) (b : FVec Ideal S4096x1024 .bf16) (r : Fin 256) (n : Fin 4096) :
    matmul (F := Ideal) dot_S256x1024_S4096x1024_S256x4096_1_1_0_0_n_n none a b (constant (F := Ideal) S256x4096 .f32 0x00000000#32) (ix2 r n)
      = ∑ k : Fin 1024, a (ix2 r k) * b (ix2 n k) := by
  rw [show dot_S256x1024_S4096x1024_S256x4096_1_1_0_0_n_n = DotDims.transposedRhs 256 1024 4096 from rfl]
  exact Cert.LibMatmul2d.matmul_transposedRhs_apply a b r n

/-- The [1, 4096] bias row broadcast over the 256 rows of the block: entry (r, n) is entry (0, n). -/
theorem bias_row (v : FVec Ideal S1x4096 .f32) (r : Fin 256) (n : Fin 4096) :
    broadcastTo S256x4096 v broadcasts_S1x4096_S256x4096 (ix2 r n) = v (ix2 0 n) :=
  broadcastTo_apply v broadcasts_S1x4096_S256x4096 (ix2 r n) (ix2 0 n) (fun a => by
    match a with
    | ⟨0, _⟩ => show (0 : Nat) = if (1 : Nat) = 1 then 0 else _; rw [if_pos rfl]
    | ⟨1, _⟩ => show n.val = if (4096 : Nat) = 1 then 0 else n.val; rw [if_neg (by decide)])

/-- The body's gate block at (r, n), as a function of the five loaded blocks. -/
theorem gates_block (P0 P1 : Vec Ideal S256x1024 .f32) (P2 P3 : Vec Ideal S4096x1024 .bf16) (P4 : Vec Ideal S1x4096 .f32)
    (r : Fin 256) (n : Fin 4096) :
    k0_pay1 (F := Ideal) P0 P1 P2 P3 P4 (ix2 r n)
      = ((∑ k : Fin 1024, P0 (ix2 r k) * P2 (ix2 n k)) + (∑ k : Fin 1024, P1 (ix2 r k) * P3 (ix2 n k))) + P4 (ix2 0 n) := by
  unfold k0_pay1
  rw [shapeCast_self, shapeCast_self, shapeCast_self]
  show (matmul (F := Ideal) dot_S256x1024_S4096x1024_S256x4096_1_1_0_0_n_n none (truncf (F := Ideal) .bf16 P0 bitsLt_bf16_f32) P2 (constant (F := Ideal) S256x4096 .f32 0x00000000#32) (ix2 r n)
      + matmul (F := Ideal) dot_S256x1024_S4096x1024_S256x4096_1_1_0_0_n_n none (truncf (F := Ideal) .bf16 P1 bitsLt_bf16_f32) P3 (constant (F := Ideal) S256x4096 .f32 0x00000000#32) (ix2 r n))
      + broadcastTo S256x4096 P4 broadcasts_S1x4096_S256x4096 (ix2 r n) = _
  rw [rows_by_rows, rows_by_rows, bias_row]
  rfl

end Cert.KernelLstm

end
-- ==== Proof.Operands.lean ====
/-
  What the kernel's windows hold: the arrays the region finds, and each window's block at a grid point.

  Before the region the host flattens each weight tensor [4, 1024, 1024] to [4096, 1024] (row g · 1024 + o is gate g,
  output feature o) and narrows it, which is the identity on the extended reals; and it adds the two biases and
  flattens the sum [4, 1024] to one row [1, 4096]. Grid point t then sees rows 256 · t … 256 · t + 255 of x, h and c
  and the whole of the three prepared arrays.
-/
import proofs.«108294_j3169685865216_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelLstm

open Cert.KernelIdeal Cert.KernelIdeal.Gen Idealize.ShloMosaic Idealize.ShloMosaic.TcCoe Idealize.SL.Sem
open Idealize.ShloMosaic.ValueIdx Idealize.ShloMosaic.StableHlo

/-- Gate `g`, output feature `o` as a row of the flattened [4096, …] arrays. -/
def flat (g : Fin 4) (o : Fin 1024) : Fin 4096 := ⟨g.val * 1024 + o.val, by have := g.isLt; have := o.isLt; omega⟩

/-- Row `r` of the block at grid point `t` as a row of the whole batch. -/
def rowAt (t : Fin 32) (r : Fin 256) : Fin 8192 := ⟨256 * t.val + r.val, by have := t.isLt; have := r.isLt; omega⟩

variable {F : FTy → Type} [FloatOps F]
variable (m : (ℓ : Loc nD τ sig) → Buf (Elt F) ℓ)

/-! ## The prepared arrays -/

/-- The x-side weights as the region finds them: flattened, then narrowed. -/
theorem weights_x_entry (c : Dev nD) :
    (V m c main_v1 : S4096x1024.Idx → Elt F .bf16)
      = truncf .bf16 (shapeCast S4096x1024 (m ((c : Thread nD τ).loc main_arg3)) shapeCasts_S4x1024x1024_S4096x1024) bitsLt_bf16_f32 := by
  dsimp only [Gen.V, Gen.hostOps0]; after_results; rfl

/-- The h-side weights as the region finds them. -/
theorem weights_h_entry (c : Dev nD) :
    (V m c main_v3 : S4096x1024.Idx → Elt F .bf16)
      = truncf .bf16 (shapeCast S4096x1024 (m ((c : Thread nD τ).loc main_arg5)) shapeCasts_S4x1024x1024_S4096x1024) bitsLt_bf16_f32 := by
  dsimp only [Gen.V, Gen.hostOps0]; after_results; rfl

/-- The bias row as the region finds it: the two biases added, then flattened. -/
theorem bias_entry (c : Dev nD) :
    (V m c main_v5 : S1x4096.Idx → Elt F .f32)
      = shapeCast S1x4096 (addf (m ((c : Thread nD τ).loc main_arg4)) (m ((c : Thread nD τ).loc main_arg6))) shapeCasts_S4x1024_S1x4096 := by
  dsimp only [Gen.V, Gen.hostOps0]; after_results; rfl

/-- A flattened [4, 1024, 1024] tensor at row g · 1024 + o. -/
theorem flatten3_apply {α : Type} (W : S4x1024x1024.Idx → α) (g : Fin 4) (o : Fin 1024) (k : Fin 1024) :
    shapeCast S4096x1024 W shapeCasts_S4x1024x1024_S4096x1024 (ix2 (flat g o) k) = W (ix3 g o k) :=
  shapeCast_apply W shapeCasts_S4x1024x1024_S4096x1024 _ _ (by
    rw [Shape.rowMajor_val_three, Shape.rowMajor_val_two]; rfl)

/-- A flattened [4, 1024] array at column g · 1024 + o of its one row. -/
theorem flatten2_apply {α : Type} (b : S4x1024.Idx → α) (g : Fin 4) (o : Fin 1024) :
    shapeCast S1x4096 b shapeCasts_S4x1024_S1x4096 (ix2 0 (flat g o)) = b (ix2 g o) :=
  shapeCast_apply b shapeCasts_S4x1024_S1x4096 _ _ (by
    rw [Shape.rowMajor_val_two, Shape.rowMajor_val_two]
    show g.val * 1024 + o.val = 0 * 4096 + (g.val * 1024 + o.val)
    omega)

/-! ## The blocks -/

/-- The printed index maps over the 32 grid points: the three batch windows and the two outputs move one block of
    rows per point, the three prepared arrays stay whole. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The grid's points as `Fin 32`. -/
def pt (t : Fin cfg0.N) : Fin 32 := ⟨t.val, lt_of_lt_of_eq t.isLt N_0⟩

/-- Entry (r, k) of the x block at point `t` is entry (256 · t + r, k) of x. -/
theorem x_block (c : Dev nD) (t : Fin cfg0.N) (r : Fin 256) (k : Fin 1024) :
    (iblk m c 0 t : Vec F S256x1024 .f32) (ix2 r k)
      = (m ((c : Thread nD τ).loc main_arg0) : S8192x1024.Idx → Elt F .f32) (ix2 (rowAt (pt t) r) k) := by
  obtain ⟨⟨e0, e1⟩, -⟩ := idx_facts t
  unfold iblk
  rw [View.read_apply]
  show V m c main_arg0 _ = _
  rw [V_main_arg0]
  congr 1
  funext a; apply Fin.ext
  match a with
  | ⟨0, _⟩ => show win0_0.index t (0 : Fin 2) * 256 + 1 * r.val = 256 * t.val + r.val; rw [e0]; omega
  | ⟨1, _⟩ => show win0_0.index t (1 : Fin 2) * 1024 + 1 * k.val = k.val; rw [e1]; omega

/-- Entry (r, k) of the h block at point `t` is entry (256 · t + r, k) of h. -/
theorem h_block (c : Dev nD) (t : Fin cfg0.N) (r : Fin 256) (k : Fin 1024) :
    (iblk m c 1 t : Vec F S256x1024 .f32) (ix2 r k)
      = (m ((c : Thread nD τ).loc main_arg1) : S8192x1024.Idx → Elt F .f32) (ix2 (rowAt (pt t) r) k) := by
  obtain ⟨-, ⟨e0, e1⟩, -⟩ := idx_facts t
  unfold iblk
  rw [View.read_apply]
  show V m c main_arg1 _ = _
  rw [V_main_arg1]
  congr 1
  funext a; apply Fin.ext
  match a with
  | ⟨0, _⟩ => show win0_1.index t (0 : Fin 2) * 256 + 1 * r.val = 256 * t.val + r.val; rw [e0]; omega
  | ⟨1, _⟩ => show win0_1.index t (1 : Fin 2) * 1024 + 1 * k.val = k.val; rw [e1]; omega

/-- Entry (r, o) of the c block at point `t` is entry (256 · t + r, o) of c. -/
theorem c_block (c : Dev nD) (t : Fin cfg0.N) (r : Fin 256) (o : Fin 1024) :
    (iblk m c 2 t : Vec F S256x1024 .f32) (ix2 r o)
      = (m ((c : Thread nD τ).loc main_arg2) : S8192x1024.Idx → Elt F .f32) (ix2 (rowAt (pt t) r) o) := by
  obtain ⟨-, -, ⟨e0, e1⟩, -⟩ := idx_facts t
  unfold iblk
  rw [View.read_apply]
  show V m c main_arg2 _ = _
  rw [V_main_arg2]
  congr 1
  funext a; apply Fin.ext
  match a with
  | ⟨0, _⟩ => show win0_2.index t (0 : Fin 2) * 256 + 1 * r.val = 256 * t.val + r.val; rw [e0]; omega
  | ⟨1, _⟩ => show win0_2.index t (1 : Fin 2) * 1024 + 1 * o.val = o.val; rw [e1]; omega

/-- The x-side weight block at every point is the whole prepared array. -/
theorem wx_block (c : Dev nD) (t : Fin cfg0.N) (y : S4096x1024.Idx) :
    (iblk m c 3 t : Vec F S4096x1024 .bf16) y = (V m c main_v1 : S4096x1024.Idx → Elt F .bf16) y := by
  obtain ⟨-, -, -, ⟨e0, e1⟩, -⟩ := idx_facts t
  unfold iblk
  rw [View.read_apply]
  show V m c main_v1 _ = _
  congr 1
  funext a; apply Fin.ext
  match a with
  | ⟨0, _⟩ => show win0_3.index t (0 : Fin 2) * 4096 + 1 * (y 0).val = (y 0).val; rw [e0]; omega
  | ⟨1, _⟩ => show win0_3.index t (1 : Fin 2) * 1024 + 1 * (y 1).val = (y 1).val; rw [e1]; omega

/-- The h-side weight block at every point is the whole prepared array. -/
theorem wh_block (c : Dev nD) (t : Fin cfg0.N) (y : S4096x1024.Idx) :
    (iblk m c 4 t : Vec F S4096x1024 .bf16) y = (V m c main_v3 : S4096x1024.Idx → Elt F .bf16) y := by
  obtain ⟨-, -, -, -, ⟨e0, e1⟩, -⟩ := idx_facts t
  unfold iblk
  rw [View.read_apply]
  show V m c main_v3 _ = _
  congr 1
  funext a; apply Fin.ext
  match a with
  | ⟨0, _⟩ => show win0_4.index t (0 : Fin 2) * 4096 + 1 * (y 0).val = (y 0).val; rw [e0]; omega
  | ⟨1, _⟩ => show win0_4.index t (1 : Fin 2) * 1024 + 1 * (y 1).val = (y 1).val; rw [e1]; omega

/-- The bias block at every point is the whole prepared row. -/
theorem b_block (c : Dev nD) (t : Fin cfg0.N) (y : S1x4096.Idx) :
    (iblk m c 5 t : Vec F S1x4096 .f32) y = (V m c main_v5 : S1x4096.Idx → Elt F .f32) y := by
  obtain ⟨-, -, -, -, -, ⟨e0, e1⟩, -⟩ := idx_facts t
  unfold iblk
  rw [View.read_apply]
  show V m c main_v5 _ = _
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

end Cert.KernelLstm

end
-- ==== Proof.LibSiluTanh.lean ====
/-
  General laws on the reals and the extended reals: the logistic function written through the hyperbolic
  tangent of the half argument.

  For every real `r`:  1 / (1 + e^(-r)) = 1/2 + (1/2) · tanh (r/2).
  Indeed with a = e^(r/2) > 0 one has tanh (r/2) = (a - a⁻¹) / (a + a⁻¹), so
  1/2 + (1/2) · tanh (r/2) = a / (a + a⁻¹) = 1 / (1 + a⁻²) = 1 / (1 + e^(-r)).
  Multiplying by r gives the "SiLU" law  r · logistic r = t + t · tanh t  with t = r/2.

  The same two laws are then stated on the extended reals at real (finite) arguments, in the spelling
  the float operations have at the exact instance: the float words of 1/2, 1, 112 and 12544 are read as
  the reals they denote.
-/
import Idealize.ShloMosaic.PureOps.Ideal
import Idealize.ShloMosaic.Lib.ValueIdx
import Mathlib.Analysis.SpecialFunctions.Trigonometric.DerivHyp

noncomputable section

namespace Cert.LibSiluTanh

open Idealize.ShloMosaic

/-! ## The float words of this family of kernels, as reals -/

/-- The word of `0.5` denotes the real 1/2. -/
theorem ofBits_half : Ideal.ofBits .f32 0x3F000000#32 = ((1 / 2 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-- The zero word denotes 0. -/
theorem ofBits_zero : Ideal.ofBits .f32 0x00000000#32 = ((0 : ℝ) : EReal) := by
  simp [Ideal.ofBits, Ideal.ieee]

/-- The word of `112.0` denotes the real 112. -/
theorem ofBits_112 : Ideal.ofBits .f32 0x42E00000#32 = ((112 : ℝ) : EReal) := by
  simp [Ideal.ofBits, Ideal.ieee, -EReal.coe_mul]; norm_num

/-- The word of `12544.0` denotes the real 12544 = 112 · 112. -/
theorem ofBits_12544 : Ideal.ofBits .f32 0x46440000#32 = ((12544 : ℝ) : EReal) := by
  simp [Ideal.ofBits, Ideal.ieee, -EReal.coe_mul]; norm_num

/-! ## On the reals -/

/-- The logistic function through the hyperbolic tangent of the half argument. -/
theorem logistic_eq_tanh_half (r : ℝ) :
    (1 + Real.exp (-r))⁻¹ = 1 / 2 + 1 / 2 * Real.tanh (1 / 2 * r) := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  set a := Real.exp (1 / 2 * r) with hadef
  have ha' : a ≠ 0 := ne_of_gt ha
  have h1 : a + a⁻¹ ≠ 0 := by positivity
  have h2 : 1 + a⁻¹ * a⁻¹ ≠ 0 := by positivity
  field_simp
  ring

/-- SiLU through the hyperbolic tangent: r · logistic r = t + t · tanh t with t = r/2. -/
theorem silu_eq_tanh_half (r : ℝ) :
    r * (1 + Real.exp (-r))⁻¹ = 1 / 2 * r + 1 / 2 * r * Real.tanh (1 / 2 * r) := by
  rw [logistic_eq_tanh_half]; ring

/-- The mean over a 112 × 112 plane taken at once is the mean of the row means. -/
theorem mean_of_means (s : ℝ) : s / 12544 = s / 112 / 112 := by
  rw [div_div]; norm_num

/-! ## On the extended reals, at real arguments -/

/-- The logistic function of a real, in the spelling the exact instance gives the kernel's
    `0.5 + 0.5 · tanh (0.5 · g)`. -/
theorem logistic_coe_eq_tanh (r : ℝ) :
    Ideal.logistic (r : EReal)
      = Ideal.ofBits .f32 0x3F000000#32
        + Ideal.ofBits .f32 0x3F000000#32 * Ideal.tanh (Ideal.ofBits .f32 0x3F000000#32 * (r : EReal)) := by
  rw [Ideal.logistic_coe, ofBits_half, ← EReal.coe_mul, Ideal.tanh_coe, ← EReal.coe_mul, ← EReal.coe_add,
    logistic_eq_tanh_half]

/-- SiLU of a real: the reference's `v · logistic v` is the kernel's `t + t · tanh t`, `t = 0.5 · v`. -/
theorem silu_coe_eq_tanh (r : ℝ) :
    (r : EReal) * Ideal.logistic (r : EReal)
      = Ideal.ofBits .f32 0x3F000000#32 * (r : EReal)
        + Ideal.ofBits .f32 0x3F000000#32 * (r : EReal)
          * Ideal.tanh (Ideal.ofBits .f32 0x3F000000#32 * (r : EReal)) := by
  rw [Ideal.logistic_coe, ofBits_half, ← EReal.coe_mul, ← EReal.coe_mul, Ideal.tanh_coe, ← EReal.coe_mul,
    ← EReal.coe_add, silu_eq_tanh_half]

/-- The host's spelling of the logistic function, `1 / (1 + e^(-x))`, is the one-operation form. -/
theorem host_logistic_eq (x : EReal) :
    Ideal.div (Ideal.ofBits .f32 0x3F800000#32) (Ideal.ofBits .f32 0x3F800000#32 + Ideal.exp (-x))
      = Ideal.logistic x := by
  rw [ofBits_one]; rfl

/-- The logistic function and SiLU of a real are real. -/
theorem logistic_coe_real (r : ℝ) : ∃ s : ℝ, Ideal.logistic (r : EReal) = (s : EReal) :=
  ⟨_, Ideal.logistic_coe r⟩

/-- Division of a real by the words of 112 twice is division by the word of 12544 once. -/
theorem div_112_112 (r : ℝ) :
    Ideal.div (Ideal.div (r : EReal) (Ideal.ofBits .f32 0x42E00000#32)) (Ideal.ofBits .f32 0x42E00000#32)
      = Ideal.div (r : EReal) (Ideal.ofBits .f32 0x46440000#32) := by
  rw [ofBits_112, ofBits_12544, Ideal.div_coe (by norm_num : (112 : ℝ) ≠ 0),
    Ideal.div_coe (by norm_num : (112 : ℝ) ≠ 0), Ideal.div_coe (by norm_num : (12544 : ℝ) ≠ 0),
    ← EReal.coe_mul, ← EReal.coe_mul, ← EReal.coe_mul]
  congr 1; ring

/-! ## On vectors of real entries, in the programs' own spelling -/

/-- SiLU of a vector whose entries are all real: the reference's `v · logistic v` is the kernel's
    `t + t · tanh t` with `t = 0.5 · v`, entry by entry. -/
theorem silu_vec {s : Shape} (v : FVec Ideal s .f32) (hv : ∀ i, ∃ r : ℝ, v i = ((r : ℝ) : EReal)) :
    mulf v (logistic v)
      = addf (mulf (broadcast s (Scalar.ofBits (F := Ideal) .f32 0x3F000000#32)) v)
          (mulf (mulf (broadcast s (Scalar.ofBits (F := Ideal) .f32 0x3F000000#32)) v)
            (tanh (mulf (broadcast s (Scalar.ofBits (F := Ideal) .f32 0x3F000000#32)) v))) := by
  funext i
  obtain ⟨r, hr⟩ := hv i
  show v i * Ideal.logistic (v i)
    = Ideal.ofBits .f32 0x3F000000#32 * v i
      + Ideal.ofBits .f32 0x3F000000#32 * v i * Ideal.tanh (Ideal.ofBits .f32 0x3F000000#32 * v i)
  rw [hr]; exact silu_coe_eq_tanh r

/-- The gate of a vector whose entries are all real: `logistic g` is the kernel's `0.5 + 0.5 · tanh (0.5 · g)`. -/
theorem gate_vec {s : Shape} (g : FVec Ideal s .f32) (hg : ∀ i, ∃ r : ℝ, g i = ((r : ℝ) : EReal)) :
    logistic g
      = addf (broadcast s (Scalar.ofBits (F := Ideal) .f32 0x3F000000#32))
          (mulf (broadcast s (Scalar.ofBits (F := Ideal) .f32 0x3F000000#32))
            (tanh (mulf (broadcast s (Scalar.ofBits (F := Ideal) .f32 0x3F000000#32)) g))) := by
  funext i
  obtain ⟨r, hr⟩ := hg i
  show Ideal.logistic (g i)
    = Ideal.ofBits .f32 0x3F000000#32
      + Ideal.ofBits .f32 0x3F000000#32 * Ideal.tanh (Ideal.ofBits .f32 0x3F000000#32 * g i)
  rw [hr]; exact logistic_coe_eq_tanh r

/-- SiLU and the gate keep real entries real. -/
theorem silu_real (r : ℝ) : ∃ s : ℝ, (r : EReal) * Ideal.logistic (r : EReal) = (s : EReal) :=
  ⟨r * (1 + Real.exp (-r))⁻¹, by rw [Ideal.logistic_coe, ← EReal.coe_mul]⟩

/-! ## Real entries stay real -/

/-- A value is real when it is neither infinity. The operations of this family of kernels — sum, product, quotient
    by a non-zero real, exponential, hyperbolic tangent, logistic — take reals to reals, which is what lets the ring
    laws be used on every intermediate value once the inputs are finite. -/
def IsReal (x : EReal) : Prop := ∃ r : ℝ, x = ((r : ℝ) : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_div {x : EReal} (hx : IsReal x) {d : ℝ} (hd : d ≠ 0) : IsReal (Ideal.div x (d : EReal)) := by
  obtain ⟨a, rfl⟩ := hx; exact ⟨a * (1 / d), by rw [Ideal.div_coe hd, ← EReal.coe_mul]⟩

theorem isReal_exp {x : EReal} (hx : IsReal x) : IsReal (Ideal.exp x) := by
  obtain ⟨a, rfl⟩ := hx; exact ⟨Real.exp a, Ideal.exp_coe a⟩

theorem isReal_tanh {x : EReal} (hx : IsReal x) : IsReal (Ideal.tanh x) := by
  obtain ⟨a, rfl⟩ := hx; exact ⟨Real.tanh a, Ideal.tanh_coe a⟩

theorem isReal_logistic {x : EReal} (hx : IsReal x) : IsReal (Ideal.logistic x) := by
  obtain ⟨a, rfl⟩ := hx; exact ⟨_, Ideal.logistic_coe a⟩

theorem isReal_half : IsReal (Ideal.ofBits .f32 0x3F000000#32) := ⟨_, ofBits_half⟩
theorem isReal_zero : IsReal (Ideal.ofBits .f32 0x00000000#32) := ⟨_, ofBits_zero⟩

end Cert.LibSiluTanh

end
-- ==== Proof.LstmCell.lean ====
/-
  One step of an LSTM cell on the extended reals, as a function of its seven argument arrays.

  For a batch row r, a gate g ∈ {0: input, 1: forget, 2: cell, 3: output} and an output feature o the
  pre-activation is

      gate r g o = Σ_k x[r,k] · Wx[g,o,k] + Σ_k h[r,k] · Wh[g,o,k] + bx[g,o] + bh[g,o],

  and the step is

      c'[r,o] = σ(gate r 1 o) · c[r,o] + σ(gate r 0 o) · tanh(gate r 2 o),
      h'[r,o] = σ(gate r 3 o) · tanh(c'[r,o]),

  with σ the logistic function. Everything is stated on the extended reals, where + is associative and
  commutative without any finiteness, so the two biases may be added to the products one after the other or
  first to each other.
-/
import Idealize.ShloMosaic.PureOps.Ideal
import Idealize.ShloMosaic.Lib.ValueIdx
import proofs.«108294_j3169685865216_2_alg».proof.Proof.LibSiluTanh

noncomputable section

namespace Cert.Lstm

open Idealize.ShloMosaic Idealize.ShloMosaic.ValueIdx
open scoped BigOperators

/-- A batch of rows: [8192, 1024]. -/
abbrev Rows : Type := FVec Ideal ⟨2, ![8192, 1024]⟩ .f32
/-- The four gates' weight matrices: [4, 1024, 1024], indexed (gate, output feature, input feature). -/
abbrev Weights : Type := FVec Ideal ⟨3, ![4, 1024, 1024]⟩ .f32
/-- The four gates' biases: [4, 1024]. -/
abbrev Biases : Type := FVec Ideal ⟨2, ![4, 1024]⟩ .f32

/-- The pre-activation of gate `g` at batch row `r` and output feature `o`: the two contractions over the
    input features, then the two biases, added from the left. -/
def gate (x h : Rows) (Wx Wh : Weights) (bx bh : Biases) (r : Fin 8192) (g : Fin 4) (o : Fin 1024) : EReal :=
  (((∑ k : Fin 1024, x (ix2 r k) * Wx (ix3 g o k)) + (∑ k : Fin 1024, h (ix2 r k) * Wh (ix3 g o k)))
      + bx (ix2 g o)) + bh (ix2 g o)

/-- The new cell value from the input, forget and cell pre-activations and the old cell value. -/
def cellOf (gi gf gg c : EReal) : EReal := Ideal.logistic gf * c + Ideal.logistic gi * Ideal.tanh gg

/-- The new hidden value from the output pre-activation and the new cell value. -/
def hiddenOf (go cn : EReal) : EReal := Ideal.logistic go * Ideal.tanh cn

/-- The new cell state, entry by entry. -/
def cNext (x h c : Rows) (Wx Wh : Weights) (bx bh : Biases) : Rows := fun i =>
  cellOf (gate x h Wx Wh bx bh (i 0) 0 (i 1)) (gate x h Wx Wh bx bh (i 0) 1 (i 1))
    (gate x h Wx Wh bx bh (i 0) 2 (i 1)) (c i)

/-- The new hidden state, entry by entry. -/
def hNext (x h c : Rows) (Wx Wh : Weights) (bx bh : Biases) : Rows := fun i =>
  hiddenOf (gate x h Wx Wh bx bh (i 0) 3 (i 1)) (cNext x h c Wx Wh bx bh i)

/-- The two biases added to each other first: the same pre-activation, by associativity of + on the extended reals. -/
theorem gate_eq_bias_first (x h : Rows) (Wx Wh : Weights) (bx bh : Biases) (r : Fin 8192) (g : Fin 4) (o : Fin 1024) :
    ((∑ k : Fin 1024, x (ix2 r k) * Wx (ix3 g o k)) + (∑ k : Fin 1024, h (ix2 r k) * Wh (ix3 g o k)))
      + (bx (ix2 g o) + bh (ix2 g o)) = gate x h Wx Wh bx bh r g o := by
  unfold gate
  exact (add_assoc _ _ _).symm

/-- The logistic function spelt `1 / (1 + e^(-z))` with the float word of 1.0 is the logistic function. -/
theorem logistic_spelt (z : EReal) :
    Ideal.div (Ideal.ofBits .f32 0x3F800000#32) (Ideal.ofBits .f32 0x3F800000#32 + Ideal.exp (-z)) = Ideal.logistic z :=
  Cert.LibSiluTanh.host_logistic_eq z

end Cert.Lstm

end
-- ==== Proof.KernelValue.lean ====
/-
  The kernel's two result arrays are the LSTM step of `LstmCell.lean`.

  At grid point t the body holds rows 256 · t … 256 · t + 255 of x, h and c and the whole prepared weights and bias
  row, so entry (r, g · 1024 + o) of its gate block is the pre-activation of gate g at batch row 256 · t + r and
  output feature o — with the two biases added to each other before they are added to the products, the same
  extended real by associativity. Slicing the four gates out of the block's columns and applying the logistic
  function, the hyperbolic tangent and the cell's products and sums gives rows 256 · t … 256 · t + 255 of the new
  cell and hidden states; the 32 points' row blocks tile [8192, 1024].
-/
import proofs.«108294_j3169685865216_2_alg».proof.Proof.Gen.KernelIdeal.Value
import proofs.«108294_j3169685865216_2_alg».proof.Proof.KernelGates
import proofs.«108294_j3169685865216_2_alg».proof.Proof.Operands
import proofs.«108294_j3169685865216_2_alg».proof.Proof.LstmCell

noncomputable section

namespace Cert.KernelLstm

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One grid point, over variables -/

/-- The six loaded blocks at the grid point `T` are what the argument arrays hold there: the rows of x, h and c
    from 256 · T on, the flattened weights, and the flattened sum of the biases. -/
structure Loaded (X H C : Lstm.Rows) (Wx Wh : Lstm.Weights) (bx bh : Lstm.Biases) (T : Fin 32)
    (P0 P1 P5 : Vec Ideal S256x1024 .f32) (P2 P3 : Vec Ideal S4096x1024 .bf16) (P4 : Vec Ideal S1x4096 .f32) : Prop where
  x : ∀ (r : Fin 256) (k : Fin 1024), P0 (ix2 r k) = X (ix2 (rowAt T r) k)
  h : ∀ (r : Fin 256) (k : Fin 1024), P1 (ix2 r k) = H (ix2 (rowAt T r) k)
  c : ∀ (r : Fin 256) (o : Fin 1024), P5 (ix2 r o) = C (ix2 (rowAt T r) o)
  wx : ∀ (g : Fin 4) (o k : Fin 1024), P2 (ix2 (flat g o) k) = Wx (ix3 g o k)
  wh : ∀ (g : Fin 4) (o k : Fin 1024), P3 (ix2 (flat g o) k) = Wh (ix3 g o k)
  b : ∀ (g : Fin 4) (o : Fin 1024), P4 (ix2 0 (flat g o)) = bx (ix2 g o) + bh (ix2 g o)

section Point

variable {X H C : Lstm.Rows} {Wx Wh : Lstm.Weights} {bx bh : Lstm.Biases} {T : Fin 32}
variable {P0 P1 P5 : Vec Ideal S256x1024 .f32} {P2 P3 : Vec Ideal S4096x1024 .bf16} {P4 : Vec Ideal S1x4096 .f32}

/-- Column g · 1024 + o of the gate block's row r is the pre-activation of gate g. -/
theorem gate_at (L : Loaded X H C Wx Wh bx bh T P0 P1 P5 P2 P3 P4) (r : Fin 256) (g : Fin 4) (o : Fin 1024) :
    k0_pay1 (F := Ideal) P0 P1 P2 P3 P4 (ix2 r (flat g o)) = Lstm.gate X H Wx Wh bx bh (rowAt T r) g o := by
  rw [gates_block]
  simp only [L.x, L.h, L.wx, L.wh, L.b]
  exact Lstm.gate_eq_bias_first X H Wx Wh bx bh (rowAt T r) g o

/-- The cell block: entry (r, o) is the new cell state at (256 · T + r, o). -/
theorem cell_block (L : Loaded X H C Wx Wh bx bh T P0 P1 P5 P2 P3 P4) (y : S256x1024.Idx) :
    Value.E7 (F := Ideal) P0 P1 P2 P3 P4 P5 y = Lstm.cNext X H C Wx Wh bx bh (ix2 (rowAt T (y 0)) (y 1)) := by
  obtain ⟨r, o, rfl⟩ : ∃ (r : Fin 256) (o : Fin 1024), y = ix2 r o := ⟨y 0, y 1, eq_ix2 y⟩
  have e0 : Value.ix7_0 (ix2 r o) = ix2 r (flat 1 o) := funext fun a => Fin.ext (by
    match a with | ⟨0, _⟩ => rfl | ⟨1, _⟩ => show o.val + 1024 = 1 * 1024 + o.val; omega)
  have e1 : Value.ix7_1 (ix2 r o) = ix2 r o := funext fun a => Fin.ext (by
    match a with | ⟨0, _⟩ => rfl | ⟨1, _⟩ => rfl)
  have e2 : Value.ix7_2 (ix2 r o) = ix2 r (flat 0 o) := funext fun a => Fin.ext (by
    match a with | ⟨0, _⟩ => rfl | ⟨1, _⟩ => show o.val = 0 * 1024 + o.val; omega)
  have e3 : Value.ix7_3 (ix2 r o) = ix2 r (flat 2 o) := funext fun a => Fin.ext (by
    match a with | ⟨0, _⟩ => rfl | ⟨1, _⟩ => show o.val + 2048 = 2 * 1024 + o.val; omega)
  show Ideal.logistic (k0_pay1 (F := Ideal) P0 P1 P2 P3 P4 (Value.ix7_0 (ix2 r o))) * P5 (Value.ix7_1 (ix2 r o))
      + Ideal.logistic (k0_pay1 (F := Ideal) P0 P1 P2 P3 P4 (Value.ix7_2 (ix2 r o)))
        * Ideal.tanh (k0_pay1 (F := Ideal) P0 P1 P2 P3 P4 (Value.ix7_3 (ix2 r o))) = _
  rw [e0, e1, e2, e3, gate_at L, gate_at L, gate_at L, L.c]
  rfl

/-- The hidden block: entry (r, o) is the new hidden state at (256 · T + r, o). -/
theorem hidden_block (L : Loaded X H C Wx Wh bx bh T P0 P1 P5 P2 P3 P4) (y : S256x1024.Idx) :
    Value.E6 (F := Ideal) P0 P1 P2 P3 P4 P5 y = Lstm.hNext X H C Wx Wh bx bh (ix2 (rowAt T (y 0)) (y 1)) := by
  obtain ⟨r, o, rfl⟩ : ∃ (r : Fin 256) (o : Fin 1024), y = ix2 r o := ⟨y 0, y 1, eq_ix2 y⟩
  have e0 : Value.ix6_0 (ix2 r o) = ix2 r (flat 3 o) := funext fun a => Fin.ext (by
    match a with | ⟨0, _⟩ => rfl | ⟨1, _⟩ => show o.val + 3072 = 3 * 1024 + o.val; omega)
  have e1 : Value.ix6_1 (ix2 r o) = ix2 r (flat 1 o) := funext fun a => Fin.ext (by
    match a with | ⟨0, _⟩ => rfl | ⟨1, _⟩ => show o.val + 1024 = 1 * 1024 + o.val; omega)
  have e2 : Value.ix6_2 (ix2 r o) = ix2 r o := funext fun a => Fin.ext (by
    match a with | ⟨0, _⟩ => rfl | ⟨1, _⟩ => rfl)
  have e3 : Value.ix6_3 (ix2 r o) = ix2 r (flat 0 o) := funext fun a => Fin.ext (by
    match a with | ⟨0, _⟩ => rfl | ⟨1, _⟩ => show o.val = 0 * 1024 + o.val; omega)
  have e4 : Value.ix6_4 (ix2 r o) = ix2 r (flat 2 o) := funext fun a => Fin.ext (by
    match a with | ⟨0, _⟩ => rfl | ⟨1, _⟩ => show o.val + 2048 = 2 * 1024 + o.val; omega)
  show Ideal.logistic (k0_pay1 (F := Ideal) P0 P1 P2 P3 P4 (Value.ix6_0 (ix2 r o)))
      * Ideal.tanh (Ideal.logistic (k0_pay1 (F := Ideal) P0 P1 P2 P3 P4 (Value.ix6_1 (ix2 r o))) * P5 (Value.ix6_2 (ix2 r o))
        + Ideal.logistic (k0_pay1 (F := Ideal) P0 P1 P2 P3 P4 (Value.ix6_3 (ix2 r o)))
          * Ideal.tanh (k0_pay1 (F := Ideal) P0 P1 P2 P3 P4 (Value.ix6_4 (ix2 r o)))) = _
  rw [e0, e1, e2, e3, e4, gate_at L, gate_at L, gate_at L, gate_at L, L.c]
  rfl

end Point

/-! ## What the body leaves, at its loads -/

theorem hz : (![0, 0] : Fin 2 → Nat) = fun _ => 0 := funext fun a => by fin_cases a <;> rfl

/-- The hidden output's staging buffer after the body, entry by entry, from the six input blocks. -/
theorem out6_apply {F : FTy → Type} [FloatOps F] (x0 x1 x2 : Vec F S256x1024 .f32) (x3 x4 : Vec F S4096x1024 .bf16)
    (x5 : Vec F S1x4096 .f32) (y : S256x1024.Idx) :
    out0_6 x0 x1 x2 x3 x4 x5 y = Value.E6 x0 x1 x3 x4 x5 x2 y := by
  unfold out0_6
  rw [Value.canon6_eq]
  simp only [View.ld_unit_zero (S := S256x1024) hz, View.ld_unit_zero (S := S4096x1024) hz,
    View.ld_unit_zero (S := S1x4096) hz]

/-- The cell output's staging buffer after the body, entry by entry, from the six input blocks. -/
theorem out7_apply {F : FTy → Type} [FloatOps F] (x0 x1 x2 : Vec F S256x1024 .f32) (x3 x4 : Vec F S4096x1024 .bf16)
    (x5 : Vec F S1x4096 .f32) (y : S256x1024.Idx) :
    out0_7 x0 x1 x2 x3 x4 x5 y = Value.E7 x0 x1 x3 x4 x5 x2 y := by
  unfold out0_7
  rw [Value.canon7_eq]
  simp only [View.ld_unit_zero (S := S256x1024) hz, View.ld_unit_zero (S := S4096x1024) hz,
    View.ld_unit_zero (S := S1x4096) hz]

/-! ## Every grid point, and the whole arrays -/

variable (m : (ℓ : Loc nD τ sig) → Buf (Elt Ideal) ℓ) (ρ : Dev nD → PrngReg)

/-- The new hidden state of the arguments as launched. -/
abbrev hiddenOf (c : Dev nD) : Lstm.Rows :=
  Lstm.hNext (m ((c : Thread nD τ).loc main_arg0)) (m ((c : Thread nD τ).loc main_arg1)) (m ((c : Thread nD τ).loc main_arg2))
    (m ((c : Thread nD τ).loc main_arg3)) (m ((c : Thread nD τ).loc main_arg5))
    (m ((c : Thread nD τ).loc main_arg4)) (m ((c : Thread nD τ).loc main_arg6))

/-- The new cell state of the arguments as launched. -/
abbrev cellOf (c : Dev nD) : Lstm.Rows :=
  Lstm.cNext (m ((c : Thread nD τ).loc main_arg0)) (m ((c : Thread nD τ).loc main_arg1)) (m ((c : Thread nD τ).loc main_arg2))
    (m ((c : Thread nD τ).loc main_arg3)) (m ((c : Thread nD τ).loc main_arg5))
    (m ((c : Thread nD τ).loc main_arg4)) (m ((c : Thread nD τ).loc main_arg6))

/-- At grid point `t` the six input blocks are the arguments' rows from 256 · t on and the prepared arrays. -/
theorem loaded (c : Dev nD) (t : Fin cfg0.N) :
    Loaded (m ((c : Thread nD τ).loc main_arg0)) (m ((c : Thread nD τ).loc main_arg1)) (m ((c : Thread nD τ).loc main_arg2))
      (m ((c : Thread nD τ).loc main_arg3)) (m ((c : Thread nD τ).loc main_arg5))
      (m ((c : Thread nD τ).loc main_arg4)) (m ((c : Thread nD τ).loc main_arg6)) (pt t)
      (iblk m c 0 t) (iblk m c 1 t) (iblk m c 2 t) (iblk m c 3 t) (iblk m c 4 t) (iblk m c 5 t) where
  x := x_block m c t
  h := h_block m c t
  c := c_block m c t
  wx := fun g o k => (wx_block m c t _).trans (by rw [weights_x_entry]; exact flatten3_apply _ g o k)
  wh := fun g o k => (wh_block m c t _).trans (by rw [weights_h_entry]; exact flatten3_apply _ g o k)
  b := fun g o => (b_block m c t _).trans (by rw [bias_entry, flatten2_apply]; rfl)

/-- Where entry y of an output block at point `t` sits in the [8192, 1024] array. -/
theorem emb6 (t : Fin cfg0.N) (y : S256x1024.Idx) :
    ((cfg0.win 6).blk t).view.emb y = ix2 (rowAt (pt t) (y 0)) (y 1) := by
  obtain ⟨-, -, -, -, -, -, ⟨e0, e1⟩, -⟩ := idx_facts t
  funext a; apply Fin.ext
  match a with
  | ⟨0, _⟩ => show win0_6.index t (0 : Fin 2) * 256 + 1 * (y 0).val = 256 * t.val + (y 0).val; rw [e0]; omega
  | ⟨1, _⟩ => show win0_6.index t (1 : Fin 2) * 1024 + 1 * (y 1).val = (y 1).val; rw [e1]; omega

theorem emb7 (t : Fin cfg0.N) (y : S256x1024.Idx) :
    ((cfg0.win 7).blk t).view.emb y = ix2 (rowAt (pt t) (y 0)) (y 1) := by
  obtain ⟨-, -, -, -, -, -, -, ⟨e0, e1⟩⟩ := idx_facts t
  funext a; apply Fin.ext
  match a with
  | ⟨0, _⟩ => show win0_7.index t (0 : Fin 2) * 256 + 1 * (y 0).val = 256 * t.val + (y 0).val; rw [e0]; omega
  | ⟨1, _⟩ => show win0_7.index t (1 : Fin 2) * 1024 + 1 * (y 1).val = (y 1).val; rw [e1]; omega

/-- What point `t` writes back to the hidden output is block `t` of the new hidden state. -/
theorem flushed6_eq (c : Dev nD) (t : Fin cfg0.N) :
    (dats m 0 c).flushed 6 t = ((cfg0.win 6).blk t).view.read (Elt Ideal) (hiddenOf m c) := by
  rw [Value.flushed6]
  funext y
  show out0_6 (iblk m c 0 t) (iblk m c 1 t) (iblk m c 2 t) (iblk m c 3 t) (iblk m c 4 t) (iblk m c 5 t) y
    = hiddenOf m c (((cfg0.win 6).blk t).view.emb y)
  rw [emb6]
  exact (out6_apply _ _ _ _ _ _ y).trans (hidden_block (loaded m c t) y)

/-- What point `t` writes back to the cell output is block `t` of the new cell state. -/
theorem flushed7_eq (c : Dev nD) (t : Fin cfg0.N) :
    (dats m 0 c).flushed 7 t = ((cfg0.win 7).blk t).view.read (Elt Ideal) (cellOf m c) := by
  rw [Value.flushed7]
  funext y
  show out0_7 (iblk m c 0 t) (iblk m c 1 t) (iblk m c 2 t) (iblk m c 3 t) (iblk m c 4 t) (iblk m c 5 t) y
    = cellOf m c (((cfg0.win 7).blk t).view.emb y)
  rw [emb7]
  exact (out7_apply _ _ _ _ _ _ y).trans (cell_block (loaded m c t) y)

/-- Row i₀ of an output array lies in the block of point i₀ / 256. -/
theorem cover6 (i : S8192x1024.Idx) :
    ∃ t : Fin cfg0.N, (cfg0.win 6).flush t = true ∧ i ∈ ((cfg0.win 6).blk t).view.set := by
  have h0 : (i 0).val < 8192 := (i 0).isLt
  have h1 : (i 1).val < 1024 := (i 1).isLt
  let t : Fin cfg0.N := ⟨(i 0).val / 256, by rw [show cfg0.N = 32 from N_0]; omega⟩
  obtain ⟨-, -, -, -, -, -, ⟨e0, e1⟩, -⟩ := idx_facts t
  refine ⟨t, flush0_6 t, ?_⟩
  show i ∈ ((View.whole main_v6_0).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [e0]; show (i 0).val / 256 * 256 ≤ (i 0).val ∧ (i 0).val < (i 0).val / 256 * 256 + 256; omega
  | ⟨1, _⟩ =>
    show win0_6.index t (1 : Fin 2) * 1024 ≤ (i 1).val ∧ (i 1).val < win0_6.index t (1 : Fin 2) * 1024 + 1024
    rw [e1]; omega

theorem cover7 (i : S8192x1024.Idx) :
    ∃ t : Fin cfg0.N, (cfg0.win 7).flush t = true ∧ i ∈ ((cfg0.win 7).blk t).view.set := by
  have h0 : (i 0).val < 8192 := (i 0).isLt
  have h1 : (i 1).val < 1024 := (i 1).isLt
  let t : Fin cfg0.N := ⟨(i 0).val / 256, by rw [show cfg0.N = 32 from N_0]; omega⟩
  obtain ⟨-, -, -, -, -, -, -, ⟨e0, e1⟩⟩ := idx_facts t
  refine ⟨t, flush0_7 t, ?_⟩
  show i ∈ ((View.whole main_v6_1).slice (win0_7.rect t)).set
  rw [View.set_slice_whole, Rect.mem_set_unit]
  intro a
  match a with
  | ⟨0, _⟩ =>
    show win0_7.index t (0 : Fin 2) * 256 ≤ (i 0).val ∧ (i 0).val < win0_7.index t (0 : Fin 2) * 256 + 256
    rw [e0]; show (i 0).val / 256 * 256 ≤ (i 0).val ∧ (i 0).val < (i 0).val / 256 * 256 + 256; omega
  | ⟨1, _⟩ =>
    show win0_7.index t (1 : Fin 2) * 1024 ≤ (i 1).val ∧ (i 1).val < win0_7.index t (1 : Fin 2) * 1024 + 1024
    rw [e1]; omega

/-- After the run the hidden output holds the new hidden state. -/
theorem final6 (c : Dev nD) : (dats m 0 c).arrAt 6 cfg0.N = hiddenOf m c :=
  (dats m 0 c).arrAt_eq_of_cover 6 (hiddenOf m c) (fun t _ => flushed6_eq m c t) cover6

/-- After the run the cell output holds the new cell state. -/
theorem final7 (c : Dev nD) : (dats m 0 c).arrAt 7 cfg0.N = cellOf m c :=
  (dats m 0 c).arrAt_eq_of_cover 7 (cellOf m c) (fun t _ => flushed7_eq m c t) cover7

/-- The kernel's run, read: its two results are the new hidden and cell states of the arguments, which end unchanged. -/
theorem run : θ_run defs (onTc (τ := τ) (main (F := Ideal))) ⟨m, fun _ => 0, ρ⟩ fun r => ∀ c : Dev nD,
      r.2.mem ((c : Thread nD τ).loc main_v6_0) = hiddenOf m c
      ∧ r.2.mem ((c : Thread nD τ).loc main_v6_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelLstm

end
-- ==== Proof.RefReads.lean ====
/-
  The reference, read entry by entry: its two results are the LSTM step of `LstmCell.lean`.

  The reference contracts x against Wx and h against Wh into [8192, 4, 1024], adds the two biases one after
  the other (each broadcast over the batch), slices the four gates out along the middle axis, and applies the
  logistic function spelt 1 / (1 + e^(-z)), the hyperbolic tangent, and the cell's products and sums pointwise.
-/
import proofs.«108294_j3169685865216_2_alg».proof.Proof.Gen.ReferenceIdeal.Read
import proofs.«108294_j3169685865216_2_alg».proof.Proof.LstmCell

noncomputable section

namespace Cert.RefLstm

open Cert.ReferenceIdeal Cert.ReferenceIdeal.Read Idealize.ShloMosaic Idealize.ShloMosaic.ValueIdx
open scoped BigOperators

variable (x0 x1 x2 : FVec Ideal S8192x1024 .f32) (x3 x5 : FVec Ideal S4x1024x1024 .f32) (x4 x6 : FVec Ideal S4x1024 .f32)

/-- The four gates' pre-activations, before slicing: entry (r, g, o) of the [8192, 4, 1024] array. -/
theorem gates_apply (r : Fin 8192) (g : Fin 4) (o : Fin 1024) :
    val_main_v8 (F := Ideal) x0 x1 x3 x4 x5 x6 (ix3 r g o) = Lstm.gate x0 x1 x3 x5 x4 x6 r g o := by
  rw [val_main_v8_apply, val_main_v5_apply, val_main_v2_apply, val_main_v0_apply, val_main_v1_apply,
    val_main_v7_apply, val_main_v6_apply, val_main_v4_apply, val_main_v3_apply]
  have el0 : ∀ k : Fin 1024, lidx_main_v0 (ix3 r g o) k = ix2 r k := fun k => funext fun a => Fin.ext (by
    match a with | ⟨0, _⟩ => rfl | ⟨1, _⟩ => rfl)
  have er0 : ∀ k : Fin 1024, ridx_main_v0 (ix3 r g o) k = ix3 g o k := fun k => funext fun a => Fin.ext (by
    match a with | ⟨0, _⟩ => rfl | ⟨1, _⟩ => rfl | ⟨2, _⟩ => rfl)
  have el1 : ∀ k : Fin 1024, lidx_main_v1 (ix3 r g o) k = ix2 r k := fun k => funext fun a => Fin.ext (by
    match a with | ⟨0, _⟩ => rfl | ⟨1, _⟩ => rfl)
  have er1 : ∀ k : Fin 1024, ridx_main_v1 (ix3 r g o) k = ix3 g o k := fun k => funext fun a => Fin.ext (by
    match a with | ⟨0, _⟩ => rfl | ⟨1, _⟩ => rfl | ⟨2, _⟩ => rfl)
  have e4 : idx_main_v3 (idx_main_v4 (ix3 r g o)) = ix2 g o := funext fun a => Fin.ext (by
    match a with | ⟨0, _⟩ => rfl | ⟨1, _⟩ => rfl)
  have e6 : idx_main_v6 (idx_main_v7 (ix3 r g o)) = ix2 g o := funext fun a => Fin.ext (by
    match a with | ⟨0, _⟩ => rfl | ⟨1, _⟩ => rfl)
  simp only [el0, er0, el1, er1, e4, e6]
  rfl

/-- Gate `g` sliced out and its unit axis dropped: entry (r, o) is entry (r, g, o) of the gates. -/
theorem slice0_apply (r : Fin 8192) (o : Fin 1024) :
    val_main_v10 (F := Ideal) x0 x1 x3 x4 x5 x6 (ix2 r o) = val_main_v8 (F := Ideal) x0 x1 x3 x4 x5 x6 (ix3 r 0 o) := by
  rw [val_main_v10_apply, val_main_v9_apply]
  congr 1
  funext a; apply Fin.ext
  have ho := o.isLt
  match a with
  | ⟨0, _⟩ => show (r.val * 1024 + o.val) / 1024 = r.val; omega
  | ⟨1, _⟩ => rfl
  | ⟨2, _⟩ => show (r.val * 1024 + o.val) % 1024 = o.val; omega

theorem slice1_apply (r : Fin 8192) (o : Fin 1024) :
    val_main_v18 (F := Ideal) x0 x1 x3 x4 x5 x6 (ix2 r o) = val_main_v8 (F := Ideal) x0 x1 x3 x4 x5 x6 (ix3 r 1 o) := by
  rw [val_main_v18_apply, val_main_v17_apply]
  congr 1
  funext a; apply Fin.ext
  have ho := o.isLt
  match a with
  | ⟨0, _⟩ => show (r.val * 1024 + o.val) / 1024 = r.val; omega
  | ⟨1, _⟩ => rfl
  | ⟨2, _⟩ => show (r.val * 1024 + o.val) % 1024 = o.val; omega

theorem slice2_apply (r : Fin 8192) (o : Fin 1024) :
    val_main_v26 (F := Ideal) x0 x1 x3 x4 x5 x6 (ix2 r o) = val_main_v8 (F := Ideal) x0 x1 x3 x4 x5 x6 (ix3 r 2 o) := by
  rw [val_main_v26_apply, val_main_v25_apply]
  congr 1
  funext a; apply Fin.ext
  have ho := o.isLt
  match a with
  | ⟨0, _⟩ => show (r.val * 1024 + o.val) / 1024 = r.val; omega
  | ⟨1, _⟩ => rfl
  | ⟨2, _⟩ => show (r.val * 1024 + o.val) % 1024 = o.val; omega

theorem slice3_apply (r : Fin 8192) (o : Fin 1024) :
    val_main_v29 (F := Ideal) x0 x1 x3 x4 x5 x6 (ix2 r o) = val_main_v8 (F := Ideal) x0 x1 x3 x4 x5 x6 (ix3 r 3 o) := by
  rw [val_main_v29_apply, val_main_v28_apply]
  congr 1
  funext a; apply Fin.ext
  have ho := o.isLt
  match a with
  | ⟨0, _⟩ => show (r.val * 1024 + o.val) / 1024 = r.val; omega
  | ⟨1, _⟩ => rfl
  | ⟨2, _⟩ => show (r.val * 1024 + o.val) % 1024 = o.val; omega

/-- The input gate: the logistic function of its pre-activation. -/
theorem sigma_i (i : S8192x1024.Idx) :
    val_main_v16 (F := Ideal) x0 x1 x3 x4 x5 x6 i = Ideal.logistic (val_main_v10 (F := Ideal) x0 x1 x3 x4 x5 x6 i) := by
  rw [val_main_v16_apply, val_main_v15_apply, val_main_cst_0_apply, val_main_v14_apply, val_main_v13_apply,
    val_main_cst_apply, val_main_v12_apply, val_main_v11_apply]
  exact Lstm.logistic_spelt _

/-- The forget gate. -/
theorem sigma_f (i : S8192x1024.Idx) :
    val_main_v24 (F := Ideal) x0 x1 x3 x4 x5 x6 i = Ideal.logistic (val_main_v18 (F := Ideal) x0 x1 x3 x4 x5 x6 i) := by
  rw [val_main_v24_apply, val_main_v23_apply, val_main_cst_2_apply, val_main_v22_apply, val_main_v21_apply,
    val_main_cst_1_apply, val_main_v20_apply, val_main_v19_apply]
  exact Lstm.logistic_spelt _

/-- The output gate. -/
theorem sigma_o (i : S8192x1024.Idx) :
    val_main_v35 (F := Ideal) x0 x1 x3 x4 x5 x6 i = Ideal.logistic (val_main_v29 (F := Ideal) x0 x1 x3 x4 x5 x6 i) := by
  rw [val_main_v35_apply, val_main_v34_apply, val_main_cst_4_apply, val_main_v33_apply, val_main_v32_apply,
    val_main_cst_3_apply, val_main_v31_apply, val_main_v30_apply]
  exact Lstm.logistic_spelt _

/-- The reference's second result is the new cell state. -/
theorem cell_eq : val_main_v38 (F := Ideal) x0 x1 x2 x3 x4 x5 x6 = Lstm.cNext x0 x1 x2 x3 x5 x4 x6 := by
  funext i
  obtain ⟨r, o, rfl⟩ : ∃ (r : Fin 8192) (o : Fin 1024), i = ix2 r o := ⟨i 0, i 1, eq_ix2 i⟩
  rw [val_main_v38_apply, val_main_v36_apply, val_main_v37_apply, val_main_v27_apply, sigma_f, sigma_i,
    slice0_apply, slice1_apply, slice2_apply, gates_apply, gates_apply, gates_apply]
  rfl

/-- The reference's first result is the new hidden state. -/
theorem hidden_eq : val_main_v40 (F := Ideal) x0 x1 x2 x3 x4 x5 x6 = Lstm.hNext x0 x1 x2 x3 x5 x4 x6 := by
  funext i
  obtain ⟨r, o, rfl⟩ : ∃ (r : Fin 8192) (o : Fin 1024), i = ix2 r o := ⟨i 0, i 1, eq_ix2 i⟩
  rw [val_main_v40_apply, val_main_v39_apply, sigma_o, slice3_apply, gates_apply, cell_eq]
  rfl

end Cert.RefLstm

end
-- ==== Proof.lean ====
/-
  The claim: a Pallas LSTM cell against its jnp reference, equal on the extended reals.

  Both programs compute one step of an LSTM cell (`Proof/LstmCell.lean`): from x, h, c : [8192, 1024], weights
  Wx, Wh : [4, 1024, 1024] and biases bx, bh : [4, 1024],

      gate[r, g, o] = Σ_k x[r,k] · Wx[g,o,k] + Σ_k h[r,k] · Wh[g,o,k] + bx[g,o] + bh[g,o],
      c' = σ(gate₁) · c + σ(gate₀) · tanh(gate₂),      h' = σ(gate₃) · tanh(c').

  The reference contracts against the [4, 1024, 1024] weights as they are, adds the biases one after the other,
  slices the gates along the middle axis and spells σ(z) as 1 / (1 + e^(-z)) (`Proof/RefReads.lean`). The kernel
  flattens the weights to [4096, 1024] and the sum of the biases to one row on the host, and on a grid of 32 row
  blocks multiplies a [256, 1024] block of x and of h against every row of the flattened weights, adds the bias
  row, slices the gates out of the 4096 columns and applies the one-operation logistic (`Proof/KernelGates.lean`,
  `Proof/Operands.lean`, `Proof/KernelValue.lean`). On the extended reals a narrowing of the float format is the
  identity, a product into a zero accumulator is the plain sum over the contracted axis, the one-operation
  logistic is 1 / (1 + e^(-z)), and the only rearrangement between the two sides — the biases added to each
  other first — is associativity of +, which needs no finiteness: the precondition is not used.

  The three frames are the generated ones (the reference's is its generated run with the results dropped), and
  the idealization rewrote nothing, so that conjunct is `True`.
-/
import proofs.«108294_j3169685865216_2_alg».proof.Defs
import proofs.«108294_j3169685865216_2_alg».proof.Proof.Gen.Kernel
import proofs.«108294_j3169685865216_2_alg».proof.Proof.Gen.Kernel.Frame
import proofs.«108294_j3169685865216_2_alg».proof.Proof.Gen.KernelIdeal
import proofs.«108294_j3169685865216_2_alg».proof.Proof.Gen.KernelIdeal.Frame
import proofs.«108294_j3169685865216_2_alg».proof.Proof.Gen.KernelIdeal.Value
import proofs.«108294_j3169685865216_2_alg».proof.Proof.Gen.ReferenceIdeal
import proofs.«108294_j3169685865216_2_alg».proof.Proof.Gen.ReferenceIdeal.Run
import proofs.«108294_j3169685865216_2_alg».proof.Proof.Gen.ReferenceIdeal.Read
import proofs.«108294_j3169685865216_2_alg».proof.Proof.Gen.Pre_finite_inputs
import proofs.«108294_j3169685865216_2_alg».proof.Proof.KernelValue
import proofs.«108294_j3169685865216_2_alg».proof.Proof.RefReads

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the new hidden state and the new cell state of the arguments: the kernel's by its blocks
    (`KernelLstm.run`), the reference's by its operations read entry by entry (`RefLstm.hidden_eq`, `RefLstm.cell_eq`),
    from memories that agree on the seven arguments. -/
theorem algebraic : Cert.algebraic_KernelIdeal_ReferenceIdeal := by
  intro m ρ m' ρ' _ hagree
  refine ⟨fun c => Cert.KernelLstm.hiddenOf m c, fun c => Cert.KernelLstm.cellOf m c, Cert.KernelLstm.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, Cert.RefLstm.hidden_eq]
    obtain ⟨a0, a1, a2, a3, a4, a5, a6⟩ := hagree c
    rw [a0, a1, a2, a3, a4, a5, a6]
  · rw [Cert.ReferenceIdeal.Read.val_main_v38_eq, Cert.RefLstm.cell_eq]
    obtain ⟨a0, a1, a2, a3, a4, a5, a6⟩ := hagree c
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
